-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S512x1024 : Shape := ⟨2, ![512, 1024]⟩
abbrev S1024x1024 : Shape := ⟨2, ![1024, 1024]⟩
abbrev S1x1024 : Shape := ⟨2, ![1, 1024]⟩

abbrev nBuf : Space → Nat
  | .hbm => 5
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S1x4096, .f32⟩
  | .hbm, ⟨4, _⟩ => ⟨S8192x4096, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S4096_S1x4096 : S4096.ShapeCasts S1x4096
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x4096.size a
  hwx0_0 : ∀ i : grid0.Coords, EltTy.bits .f32 = 32 ∨ (Rect.block (s := S8192x4096) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S8192x4096.size a
  hwx0_3 : ∀ i : grid0.Coords, EltTy.bits .f32 = 32 ∨ (Rect.block (s := S8192x4096) S512x1024.size (cc0_transform_3 i) (hinb0_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S8192x4096, .f32⟩
  | .hbm, ⟨4, _⟩ => ⟨S1x4096, .f32⟩
  | .hbm, ⟨5, _⟩ => ⟨S8192x4096, .f32⟩
  | .hbm, ⟨6, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.Pieces.lean ====
/-
  What one grid step leaves behind, as values. The body keeps a 512 x 1024 accumulator in a buffer that survives
  from one grid step to the next. A step of the first kind (reduction coordinate 0) overwrites the accumulator
  with zeros and then adds the product of its two operand blocks; every later step adds its product to what the
  step before left; the last step of a run (reduction coordinate 3) moreover writes accumulator plus the bias
  row into the output block. Each statement below reads the stores a step performs back as ONE function of
  the blocks it loaded: the single store that covers the whole buffer decides its contents.
-/
import proofs.«156490_j77249281786293_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- The origin of a rank-2 buffer, as the constant-zero offset function. -/
theorem origin2 : (![0, 0] : Fin 2 → Nat) = fun _ => 0 := funext fun a => by fin_cases a <;> rfl

/-- A middle step of a run: the accumulator ends at (what it held) + (lhs block) x (rhs block). -/
theorem acc_mid (c : Dev nD) (i : grid0.Coords) (a3 : Memref sig .tc .vmem S512x1024 .f32) (h3 : a3.IsWhole)
    (a4 : Memref sig .tc .vmem S1024x1024 .f32) (h4 : a4.IsWhole) (a5 : Memref sig .tc .vmem S1x1024 .f32) (h5 : a5.IsWhole)
    (a6 : Memref sig .tc .vmem S512x1024 .f32) (h6 : a6.IsWhole) (a7 : Memref sig .tc .vmem S512x1024 .f32) (h7 : a7.IsWhole)
    (hc0 : ¬cond0_0 i) (hc1 : ¬cond0_1 i)
    (x0 : Vec F S512x1024 .f32) (x1 : Vec F S1024x1024 .f32) (x2 : Vec F S1x1024 .f32) (xs0 : Vec F S512x1024 .f32) :
    sout0_B_0 c i a3 h3 a4 h4 a5 h5 a6 h6 a7 h7 hc0 hc1 x0 x1 x2 xs0 = k0_pay2 x0 x1 xs0 := by
  unfold sout0_B_0
  rw [View.read_writes_eq_canon _ _ _ (scover0_B_0 c i a3 h3 a4 h4 a5 h5 a6 h6 a7 h7 hc0 hc1 x0 x1 x2 xs0)]
  unfold kernelRun0_B
  dsimp only
  rw [View.canon_unit_zero origin2]
  simp only [View.readAt_eq_ld, h3.read_unread, h4.read_unread, h7.read_unread,
    View.ld_unit_zero (S := S512x1024) origin2, View.ld_unit_zero (S := S1024x1024) origin2]

/-- The first step of a run: the accumulator is zeroed, read back, and ends at 0 + (lhs block) x (rhs block);
    what it held before does not enter. -/
theorem acc_first (c : Dev nD) (i : grid0.Coords) (a3 : Memref sig .tc .vmem S512x1024 .f32) (h3 : a3.IsWhole)
    (a4 : Memref sig .tc .vmem S1024x1024 .f32) (h4 : a4.IsWhole) (a5 : Memref sig .tc .vmem S1x1024 .f32) (h5 : a5.IsWhole)
    (a6 : Memref sig .tc .vmem S512x1024 .f32) (h6 : a6.IsWhole) (a7 : Memref sig .tc .vmem S512x1024 .f32) (h7 : a7.IsWhole)
    (hc0 : cond0_0 i) (hc1 : ¬cond0_1 i)
    (x0 : Vec F S512x1024 .f32) (x1 : Vec F S1024x1024 .f32) (x2 : Vec F S1x1024 .f32) :
    sout0_A_0 c i a3 h3 a4 h4 a5 h5 a6 h6 a7 h7 hc0 hc1 x0 x1 x2 = k0_pay2 x0 x1 (k0_pay1 (F := F)) := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S512x1024) origin2, View.readCov_unit_zero (S := S512x1024) _ origin2]
  simp only [View.readAt_eq_ld, h3.read_unread, h4.read_unread,
    View.ld_unit_zero (S := S512x1024) origin2, View.ld_unit_zero (S := S1024x1024) origin2]

/-- The last step of a run adds its product to the accumulator like a middle step, -/
theorem acc_last (c : Dev nD) (i : grid0.Coords) (a3 : Memref sig .tc .vmem S512x1024 .f32) (h3 : a3.IsWhole)
    (a4 : Memref sig .tc .vmem S1024x1024 .f32) (h4 : a4.IsWhole) (a5 : Memref sig .tc .vmem S1x1024 .f32) (h5 : a5.IsWhole)
    (a6 : Memref sig .tc .vmem S512x1024 .f32) (h6 : a6.IsWhole) (a7 : Memref sig .tc .vmem S512x1024 .f32) (h7 : a7.IsWhole)
    (hc0 : ¬cond0_0 i) (hc1 : cond0_1 i)
    (x0 : Vec F S512x1024 .f32) (x1 : Vec F S1024x1024 .f32) (x2 : Vec F S1x1024 .f32) (xs0 : Vec F S512x1024 .f32) :
    sout0_C_0 c i a3 h3 a4 h4 a5 h5 a6 h6 a7 h7 hc0 hc1 x0 x1 x2 xs0 = k0_pay2 x0 x1 xs0 := by
  unfold sout0_C_0
  rw [View.read_writes_eq_canon _ _ _ (scover0_C_0 c i a3 h3 a4 h4 a5 h5 a6 h6 a7 h7 hc0 hc1 x0 x1 x2 xs0)]
  unfold kernelRun0_C
  dsimp only
  sl_unfold_words
  rw [View.canon_unit_zero origin2]
  simp only [View.readAt_eq_ld, h3.read_unread, h4.read_unread, h7.read_unread,
    View.ld_unit_zero (S := S512x1024) origin2, View.ld_unit_zero (S := S1024x1024) origin2]

/-- and writes (that new accumulator) + (bias row, repeated down the rows) into the output block. -/
theorem out_last (c : Dev nD) (i : grid0.Coords) (a3 : Memref sig .tc .vmem S512x1024 .f32) (h3 : a3.IsWhole)
    (a4 : Memref sig .tc .vmem S1024x1024 .f32) (h4 : a4.IsWhole) (a5 : Memref sig .tc .vmem S1x1024 .f32) (h5 : a5.IsWhole)
    (a6 : Memref sig .tc .vmem S512x1024 .f32) (h6 : a6.IsWhole) (a7 : Memref sig .tc .vmem S512x1024 .f32) (h7 : a7.IsWhole)
    (hc0 : ¬cond0_0 i) (hc1 : cond0_1 i)
    (x0 : Vec F S512x1024 .f32) (x1 : Vec F S1024x1024 .f32) (x2 : Vec F S1x1024 .f32) (xs0 : Vec F S512x1024 .f32) :
    out0_C_3 c i a3 h3 a4 h4 a5 h5 a6 h6 a7 h7 hc0 hc1 x0 x1 x2 xs0 = k0_pay3 (k0_pay2 x0 x1 xs0) x2 := by
  unfold out0_C_3
  rw [View.read_writes_eq_canon _ _ _ (cover0_C_3 c i a3 h3 a4 h4 a5 h5 a6 h6 a7 h7 hc0 hc1 x0 x1 x2 xs0)]
  unfold kernelRun0_C
  dsimp only
  sl_unfold_words
  rw [View.canon_unit_zero origin2, View.readCov_unit_zero (S := S512x1024) _ origin2]
  simp only [View.readAt_eq_ld, h3.read_unread, h4.read_unread, h5.read_unread, h7.read_unread,
    View.ld_unit_zero (S := S512x1024) origin2, View.ld_unit_zero (S := S1024x1024) origin2,
    View.ld_unit_zero (S := S1x1024) origin2]

end Cert.KernelIdeal.Pieces

end
-- ==== Proof.Payload.lean ====
/-
  The body's arithmetic at one entry, over the extended reals. Rounding the operands to a shorter format is the
  identity there, a product of blocks into a zero accumulator is a plain sum over the contracted index, and
  reshaping a block to its own shape changes nothing. So at entry (p, q) of a 512 x 1024 block:
    the reset value is 0;
    an accumulation step gives  acc(p, q) + sum over k < 1024 of lhs(p, k) * rhs(k, q);
    the epilogue gives  acc(p, q) + bias(0, q).
-/
import proofs.«156490_j77249281786293_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx

namespace Cert.KernelIdeal.Payload

open Cert.KernelIdeal Cert.KernelIdeal.Gen

/-- The reset block is zero everywhere. -/
theorem reset_apply (j : S512x1024.Idx) : k0_pay1 (F := Ideal) j = (0 : EReal) := by
  unfold k0_pay1
  simp only [shapeCast_self]
  show Ideal.ofBits .f32 0x00000000#32 = 0
  exact Ideal.ofBits_zero_f32

/-- The dimension numbers of the block product: rows x contracted times contracted x columns. -/
abbrev blockDot := dot_S512x1024_S1024x1024_S512x1024_1_0_0_1_n_n

/-- The left operand is read at the output's row … -/
theorem lhs_row (j : S512x1024.Idx) (k : blockDot.contr.Idx) : (blockDot.lhsIdx j k 0).val = (j 0).val := by
  unfold DotDims.lhsIdx
  rw [dif_neg (show ¬(0 : Fin S512x1024.rank) ∈ blockDot.lhsBatch by decide), dif_pos (show (0 : Fin S512x1024.rank) ∈ blockDot.lhsNonContracting by decide)]
  rfl
/-- … and the contracted index; -/
theorem lhs_col (j : S512x1024.Idx) (k : blockDot.contr.Idx) : (blockDot.lhsIdx j k 1).val = (k ⟨0, by decide⟩).val :=
  blockDot.lhsIdx_val_of_single rfl j k
/-- the right operand at the contracted index … -/
theorem rhs_row (j : S512x1024.Idx) (k : blockDot.contr.Idx) : (blockDot.rhsIdx j k 0).val = (k ⟨0, by decide⟩).val :=
  blockDot.rhsIdx_val_of_single rfl j k
/-- … and the output's column. -/
theorem rhs_col (j : S512x1024.Idx) (k : blockDot.contr.Idx) : (blockDot.rhsIdx j k 1).val = (j 1).val := by
  unfold DotDims.rhsIdx
  rw [dif_neg (show ¬(1 : Fin S1024x1024.rank) ∈ blockDot.rhsBatch by decide), dif_pos (show (1 : Fin S1024x1024.rank) ∈ blockDot.rhsNonContracting by decide)]
  rfl

/-- A block product into the zero accumulator, at (p, q): the sum over k of lhs(p, k) * rhs(k, q). -/
theorem blockProduct_apply (l : FVec Ideal S512x1024 .bf16) (r : FVec Ideal S1024x1024 .bf16) (p : Fin 512) (q : Fin 1024) :
    matmul (F := Ideal) blockDot none l r (constant S512x1024 .f32 0x00000000#32) (ix2 p q)
      = ∑ k : Fin 1024, l (ix2 p k) * r (ix2 k q) := by
  show FloatOps.matmul blockDot none l r (constant S512x1024 .f32 0x00000000#32) (ix2 p q) = _
  rw [Ideal.matmul_constant_zero_apply, ← Equiv.sum_comp (ValueIdx.contrEquiv1 blockDot 1024 rfl rfl).symm]
  refine Finset.sum_congr rfl fun k _ => ?_
  have hk := ValueIdx.contrEquiv1_symm_val blockDot 1024 rfl rfl k
  have el : blockDot.lhsIdx (ix2 p q) ((ValueIdx.contrEquiv1 blockDot 1024 rfl rfl).symm k) = ix2 p k := funext fun a => Fin.ext (by
    match a with
    | ⟨0, _⟩ => exact lhs_row _ _
    | ⟨1, _⟩ => exact (lhs_col _ _).trans hk)
  have er : blockDot.rhsIdx (ix2 p q) ((ValueIdx.contrEquiv1 blockDot 1024 rfl rfl).symm k) = ix2 k q := funext fun a => Fin.ext (by
    match a with
    | ⟨0, _⟩ => exact (rhs_row _ _).trans hk
    | ⟨1, _⟩ => exact rhs_col _ _)
  rw [el, er]

/-- One accumulation step at (p, q). -/
theorem step_apply (x0 : Vec Ideal S512x1024 .f32) (x1 : Vec Ideal S1024x1024 .f32) (acc : Vec Ideal S512x1024 .f32)
    (p : Fin 512) (q : Fin 1024) :
    k0_pay2 x0 x1 acc (ix2 p q) = (acc (ix2 p q) : EReal) + ∑ k : Fin 1024, (x0 (ix2 p k) : EReal) * x1 (ix2 k q) := by
  unfold k0_pay2
  simp only [shapeCast_self]
  show (acc (ix2 p q) : EReal) + matmul (F := Ideal) blockDot none (truncf .bf16 x0 bitsLt_bf16_f32) (truncf .bf16 x1 bitsLt_bf16_f32)
      (constant S512x1024 .f32 0x00000000#32) (ix2 p q) = _
  rw [blockProduct_apply]
  rfl

/-- The epilogue at (p, q): the accumulator plus the bias row's entry q. -/
theorem epilogue_apply (a : Vec Ideal S512x1024 .f32) (x2 : Vec Ideal S1x1024 .f32) (p : Fin 512) (q : Fin 1024) :
    k0_pay3 a x2 (ix2 p q) = (a (ix2 p q) : EReal) + x2 (ix2 (0 : Fin 1) q) := by
  unfold k0_pay3
  simp only [shapeCast_self]
  show (a (ix2 p q) : EReal) + broadcastTo S512x1024 x2 broadcasts_S1x1024_S512x1024 (ix2 p q) = _
  rw [ValueIdx.broadcastTo_1b_ab_apply]

end Cert.KernelIdeal.Payload

end
-- ==== Proof.Blocks.lean ====
/-
  Which entries of the arguments a grid step sees. The grid has 16 x 4 x 4 points, numbered row-major: point t has
  row-block coordinate t / 16, column-block coordinate (t / 4) % 4 and reduction coordinate t % 4. At point t
    the left operand's block is rows 512 (t / 16) … and columns 1024 (t % 4) … of x,
    the right operand's block is rows 1024 (t % 4) … and columns 1024 ((t / 4) % 4) … of W,
    the bias block is columns 1024 ((t / 4) % 4) … of b laid out as one row,
    the output block is rows 512 (t / 16) … and columns 1024 ((t / 4) % 4) … of the result.
  A block's entry (p, q) is therefore the array's entry (block index x block size + p, … + q).
-/
import proofs.«156490_j77249281786293_1_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run

noncomputable section

open Idealize.ShloMosaic Idealize.ShloMosaic.TcCoe Idealize.SL.Sem Idealize.ShloMosaic.ValueIdx
open Idealize.ShloMosaic.StableHlo

namespace Cert.KernelIdeal.Blocks

open Cert.KernelIdeal Cert.KernelIdeal.Gen

variable {F : FTy → Type} [FloatOps F]
variable (m : (ℓ : Loc nD τ sig) → Buf (Elt F) ℓ)

/-- The four windows' block indices at point t, in closed form (decided over the 256 points). -/
theorem block_index : ∀ t : Fin cfg0.N,
    win0_0.index t (0 : Fin 2) = t.val / 16 ∧ win0_0.index t (1 : Fin 2) = t.val % 4
    ∧ win0_1.index t (0 : Fin 2) = t.val % 4 ∧ win0_1.index t (1 : Fin 2) = t.val / 4 % 4
    ∧ win0_2.index t (0 : Fin 2) = 0 ∧ win0_2.index t (1 : Fin 2) = t.val / 4 % 4
    ∧ win0_3.index t (0 : Fin 2) = t.val / 16 ∧ win0_3.index t (1 : Fin 2) = t.val / 4 % 4 :=
  (by decide +kernel : ∀ t : Fin grid0.N, _)

/-- The left operand's block at point t, entry (p, k): x at (512 (t / 16) + p, 1024 (t % 4) + k). -/
theorem lhs_block (c : Dev nD) (t : Fin cfg0.N) (p : Fin 512) (k : Fin 1024) (r : Fin 8192) (kk : Fin 4096)
    (hr : r.val = 512 * (t.val / 16) + p.val) (hk : kk.val = 1024 * (t.val % 4) + k.val) :
    (iblk m c 0 t : Vec F S512x1024 .f32) (ix2 p k) = m ((c : Thread nD τ).loc main_arg0) (ix2 r kk) := by
  obtain ⟨e0, e1, -⟩ := block_index t
  unfold iblk
  rw [View.read_apply]
  show V m c main_arg0 _ = _
  rw [V_main_arg0]
  refine congrArg _ (funext fun a => Fin.ext ?_)
  match a with
  | ⟨0, _⟩ => show win0_0.index t (0 : Fin 2) * 512 + 1 * p.val = r.val; rw [e0, hr]; omega
  | ⟨1, _⟩ => show win0_0.index t (1 : Fin 2) * 1024 + 1 * k.val = kk.val; rw [e1, hk]; omega

/-- The right operand's block at point t, entry (k, q): W at (1024 (t % 4) + k, 1024 ((t / 4) % 4) + q). -/
theorem rhs_block (c : Dev nD) (t : Fin cfg0.N) (k : Fin 1024) (q : Fin 1024) (kk : Fin 4096) (cc : Fin 4096)
    (hk : kk.val = 1024 * (t.val % 4) + k.val) (hc : cc.val = 1024 * (t.val / 4 % 4) + q.val) :
    (iblk m c 1 t : Vec F S1024x1024 .f32) (ix2 k q) = m ((c : Thread nD τ).loc main_arg1) (ix2 kk cc) := by
  obtain ⟨-, -, e0, e1, -⟩ := block_index t
  unfold iblk
  rw [View.read_apply]
  show V m c main_arg1 _ = _
  rw [V_main_arg1]
  refine congrArg _ (funext fun a => Fin.ext ?_)
  match a with
  | ⟨0, _⟩ => show win0_1.index t (0 : Fin 2) * 1024 + 1 * k.val = kk.val; rw [e0, hk]; omega
  | ⟨1, _⟩ => show win0_1.index t (1 : Fin 2) * 1024 + 1 * q.val = cc.val; rw [e1, hc]; omega

/-- Before the grid runs the bias vector is laid out as one row of 4096 entries. -/
theorem bias_row (c : Dev nD) :
    (V m c main_call0_v0 : S1x4096.Idx → Elt F .f32)
      = shapeCast S1x4096 (m ((c : Thread nD τ).loc main_arg2)) shapeCasts_S4096_S1x4096 := by
  dsimp only [Gen.V, Gen.hostOps0]
  after_results
  rfl

/-- The bias block at point t, entry (0, q): b at 1024 ((t / 4) % 4) + q. -/
theorem bias_block (c : Dev nD) (t : Fin cfg0.N) (q : Fin 1024) (cc : Fin 4096)
    (hc : cc.val = 1024 * (t.val / 4 % 4) + q.val) :
    (iblk m c 2 t : Vec F S1x1024 .f32) (ix2 (0 : Fin 1) q) = m ((c : Thread nD τ).loc main_arg2) (ix1 cc) := by
  obtain ⟨-, -, -, -, e0, e1, -⟩ := block_index t
  unfold iblk
  rw [View.read_apply]
  show V m c main_call0_v0 _ = _
  rw [bias_row, ← shapeCast_a_1a_apply (m ((c : Thread nD τ).loc main_arg2)) shapeCasts_S4096_S1x4096 (0 : Fin 1) cc]
  refine congrArg _ (funext fun a => Fin.ext ?_)
  match a with
  | ⟨0, _⟩ => show win0_2.index t (0 : Fin 2) * 1 + 1 * 0 = 0; rw [e0]
  | ⟨1, _⟩ => show win0_2.index t (1 : Fin 2) * 1024 + 1 * q.val = cc.val; rw [e1, hc]; omega

end Cert.KernelIdeal.Blocks

end
-- ==== Proof.Spec.lean ====
/-
  The function both programs compute, and the one law that joins their two ways of computing it.

  For x of 8192 x 4096 entries, W of 4096 x 4096 and a bias b of 4096, the linear layer's entry (r, c) is
      sum over k < 4096 of x(r, k) * W(k, c),  plus b(c).
  One program takes the sum over k in one piece. The other cuts 0 … 4095 into four consecutive stretches of
  1024, sums each stretch, and adds the four partial sums to a running total that starts at zero. Addition of
  extended reals is commutative and associative and has 0 as neutral element, so a finite sum may be cut into
  consecutive stretches and the partial sums added in any grouping: the two agree on every input, infinite
  entries included. Nothing here needs the inputs to be finite.
-/
import Idealize.ShloMosaic.PureOps.Ideal
import Idealize.ShloMosaic.Lib.ValueIdx

noncomputable section

namespace Cert.Spec

open Idealize.ShloMosaic Idealize.ShloMosaic.ValueIdx

/-- x's shape, W's shape and the bias vector's. -/
abbrev SX : Shape := ⟨2, ![8192, 4096]⟩
abbrev SW : Shape := ⟨2, ![4096, 4096]⟩
abbrev SB : Shape := ⟨1, ![4096]⟩

/-- The product x(r, k) * W(k, c) as a function of a NATURAL k, zero past the contracted extent: with the
    index a plain number, cutting the range of k is arithmetic on numbers. -/
def term (X : SX.Idx → EReal) (W : SW.Idx → EReal) (r : Fin 8192) (c : Fin 4096) (k : ℕ) : EReal :=
  if h : k < 4096 then X (ix2 r ⟨k, h⟩) * W (ix2 ⟨k, h⟩ c) else 0

/-- Below the extent it is the product. -/
theorem term_of_lt (X : SX.Idx → EReal) (W : SW.Idx → EReal) (r : Fin 8192) (c : Fin 4096) (k : Fin 4096) :
    term X W r c k.val = X (ix2 r k) * W (ix2 k c) := by
  unfold term
  rw [dif_pos k.isLt]

/-- The linear layer's entry (r, c). -/
def linear (X : SX.Idx → EReal) (W : SW.Idx → EReal) (b : SB.Idx → EReal) (r : Fin 8192) (c : Fin 4096) : EReal :=
  (∑ k : Fin 4096, X (ix2 r k) * W (ix2 k c)) + b (ix1 c)

/-- A sum over s = 0 … 3, written out. -/
theorem sum_range_four {M : Type*} [AddCommMonoid M] (g : ℕ → M) :
    ∑ s ∈ Finset.range 4, g s = g 0 + g 1 + g 2 + g 3 := by
  simp only [Finset.sum_range_succ, Finset.sum_range_zero, zero_add]

/-- A sum over 0 … 4095 is the sum, over the four stretches s = 0 … 3, of the sums over 1024 s … 1024 s + 1023. -/
theorem sum_by_stretches {M : Type*} [AddCommMonoid M] (f : ℕ → M) :
    ∑ k : Fin 4096, f k.val = ∑ s ∈ Finset.range 4, ∑ k : Fin 1024, f (1024 * s + k.val) := by
  rw [sum_range_four, Fin.sum_univ_eq_sum_range f 4096,
    Fin.sum_univ_eq_sum_range (fun k => f (1024 * 0 + k)) 1024, Fin.sum_univ_eq_sum_range (fun k => f (1024 * 1 + k)) 1024,
    Fin.sum_univ_eq_sum_range (fun k => f (1024 * 2 + k)) 1024, Fin.sum_univ_eq_sum_range (fun k => f (1024 * 3 + k)) 1024,
    show (4096 : ℕ) = 1024 + 1024 + 1024 + 1024 from rfl, Finset.sum_range_add, Finset.sum_range_add, Finset.sum_range_add]
  simp only [Nat.mul_zero, Nat.mul_one, Nat.zero_add, Nat.reduceMul, Nat.reduceAdd]

/-- The running total of the four partial sums, plus the bias, is the linear layer's entry. -/
theorem stretches_eq_linear (X : SX.Idx → EReal) (W : SW.Idx → EReal) (b : SB.Idx → EReal) (r : Fin 8192) (c : Fin 4096) :
    (∑ s ∈ Finset.range 4, ∑ k : Fin 1024, term X W r c (1024 * s + k.val)) + b (ix1 c) = linear X W b r c := by
  unfold linear
  rw [← sum_by_stretches (term X W r c)]
  simp only [term_of_lt]

end Cert.Spec

end
-- ==== Proof.Fold.lean ====
/-
  What the accumulator and the output block hold after each grid point, entry by entry.

  Points 4 g, 4 g + 1, 4 g + 2, 4 g + 3 form one run: they share a row block and a column block and walk the four
  stretches of the contracted index. Write P(t)(p, q) for the sum over k < 1024 of (left block at t)(p, k) *
  (right block at t)(k, q). After point t of a run the accumulator's entry (p, q) is
      P(4 g)(p, q) + … + P(t)(p, q)
  (the reset contributes 0, and 0 is neutral), by induction on the point: the first point of a run starts afresh,
  every other point adds its own P to what the point before left. Read through the arguments, P(t)(p, q) is
  the sum over stretch t % 4 of x(r, k) * W(k, c) with r = 512 (t / 16) + p and c = 1024 ((t / 4) % 4) + q, and
  r and c do not change along a run. At the last point of a run the output block's entry is the accumulator's
  plus b(c): all four stretches plus the bias, which is the linear layer's entry (r, c).
-/
import proofs.«156490_j77249281786293_1_alg».proof.Proof.Pieces
import proofs.«156490_j77249281786293_1_alg».proof.Proof.Payload
import proofs.«156490_j77249281786293_1_alg».proof.Proof.Blocks
import proofs.«156490_j77249281786293_1_alg».proof.Proof.Spec

noncomputable section

open Idealize.ShloMosaic Idealize.ShloMosaic.TcCoe Idealize.SL.Sem Idealize.ShloMosaic.ValueIdx

namespace Cert.KernelIdeal.Fold

open Cert.KernelIdeal Cert.KernelIdeal.Gen

variable (m : (ℓ : Loc nD τ sig) → Buf (Elt Ideal) ℓ)

/-! ## One point, as whole blocks -/

/-- After the first point of a run the accumulator is (zero block) + product of the point's blocks. -/
theorem acc_at_first (c : Dev nD) (t : Fin cfg0.N) (h0 : t.val % 4 = 0) :
    (outsAt0 m c t.val t.isLt).2 = k0_pay2 (F := Ideal) (iblk m c 0 t) (iblk m c 1 t) (k0_pay1 (F := Ideal)) := by
  have h1 : ¬t.val % 4 = 3 := by omega
  rw [outsAt0_A m c t h0 h1]
  dsimp only
  exact Pieces.acc_first (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h))
    (iblk m c 0 t) (iblk m c 1 t) (iblk m c 2 t)

/-- After any other point it is (what the point before left) + product of the point's blocks. -/
theorem acc_at_later (c : Dev nD) (t : Fin cfg0.N) (h0 : ¬t.val % 4 = 0) :
    (outsAt0 m c t.val t.isLt).2
      = k0_pay2 (F := Ideal) (iblk m c 0 t) (iblk m c 1 t) (outsAt0 m c (t.val - 1) (Nat.lt_of_le_of_lt (Nat.sub_le _ _) t.isLt)).2 := by
  by_cases h1 : t.val % 4 = 3
  · rw [outsAt0_C m c t h0 h1]
    dsimp only
    exact Pieces.acc_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1)
      (iblk m c 0 t) (iblk m c 1 t) (iblk m c 2 t) (outsAt0 m c (t.val - 1) (Nat.lt_of_le_of_lt (Nat.sub_le _ _) t.isLt)).2
  · rw [outsAt0_B m c t h0 h1]
    dsimp only
    exact Pieces.acc_mid (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h))
      (iblk m c 0 t) (iblk m c 1 t) (iblk m c 2 t) (outsAt0 m c (t.val - 1) (Nat.lt_of_le_of_lt (Nat.sub_le _ _) t.isLt)).2

/-- At the last point of a run the output block is (the accumulator as that point leaves it) + bias row. -/
theorem out_at_last (c : Dev nD) (t : Fin cfg0.N) (h3 : t.val % 4 = 3) :
    (outsAt0 m c t.val t.isLt).1 = k0_pay3 (F := Ideal) (outsAt0 m c t.val t.isLt).2 (iblk m c 2 t) := by
  have h0 : ¬t.val % 4 = 0 := by omega
  rw [outsAt0_C m c t h0 h3]
  dsimp only
  rw [Pieces.acc_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h3)
      (iblk m c 0 t) (iblk m c 1 t) (iblk m c 2 t) (outsAt0 m c (t.val - 1) (Nat.lt_of_le_of_lt (Nat.sub_le _ _) t.isLt)).2]
  exact Pieces.out_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h3)
    (iblk m c 0 t) (iblk m c 1 t) (iblk m c 2 t) (outsAt0 m c (t.val - 1) (Nat.lt_of_le_of_lt (Nat.sub_le _ _) t.isLt)).2

/-! ## One point, at an entry -/

/-- The three input blocks at point t, as arrays of extended reals. -/
abbrev lhsAt (c : Dev nD) (t : Fin cfg0.N) : S512x1024.Idx → EReal := iblk m c 0 t
abbrev rhsAt (c : Dev nD) (t : Fin cfg0.N) : S1024x1024.Idx → EReal := iblk m c 1 t
abbrev biasAt (c : Dev nD) (t : Fin cfg0.N) : S1x1024.Idx → EReal := iblk m c 2 t

/-- P(t)(p, q): the point's block product at an entry. -/
abbrev blockProduct (c : Dev nD) (t : Fin cfg0.N) (p : Fin 512) (q : Fin 1024) : EReal :=
  ∑ k : Fin 1024, lhsAt m c t (ix2 p k) * rhsAt m c t (ix2 k q)

theorem first_entry (c : Dev nD) (t : Fin cfg0.N) (h0 : t.val % 4 = 0) (p : Fin 512) (q : Fin 1024) :
    ((outsAt0 m c t.val t.isLt).2 (ix2 p q) : EReal) = blockProduct m c t p q := by
  have key : ∀ (x0 : Vec Ideal S512x1024 .f32) (x1 : Vec Ideal S1024x1024 .f32),
      (k0_pay2 x0 x1 (k0_pay1 (F := Ideal)) (ix2 p q) : EReal) = ∑ k : Fin 1024, (x0 (ix2 p k) : EReal) * x1 (ix2 k q) :=
    fun x0 x1 => by rw [Payload.step_apply, Payload.reset_apply, zero_add]
  exact (congrFun (acc_at_first m c t h0) (ix2 p q)).trans (key (iblk m c 0 t) (iblk m c 1 t))

theorem later_entry (c : Dev nD) (t : Fin cfg0.N) (h0 : ¬t.val % 4 = 0) (p : Fin 512) (q : Fin 1024) :
    ((outsAt0 m c t.val t.isLt).2 (ix2 p q) : EReal)
      = ((outsAt0 m c (t.val - 1) (Nat.lt_of_le_of_lt (Nat.sub_le _ _) t.isLt)).2 (ix2 p q) : EReal) + blockProduct m c t p q :=
  (congrFun (acc_at_later m c t h0) (ix2 p q)).trans
    (Payload.step_apply (iblk m c 0 t) (iblk m c 1 t) (outsAt0 m c (t.val - 1) (Nat.lt_of_le_of_lt (Nat.sub_le _ _) t.isLt)).2 p q)

theorem last_entry (c : Dev nD) (t : Fin cfg0.N) (h3 : t.val % 4 = 3) (p : Fin 512) (q : Fin 1024) :
    ((outsAt0 m c t.val t.isLt).1 (ix2 p q) : EReal)
      = ((outsAt0 m c t.val t.isLt).2 (ix2 p q) : EReal) + biasAt m c t (ix2 (0 : Fin 1) q) :=
  (congrFun (out_at_last m c t h3) (ix2 p q)).trans
    (Payload.epilogue_apply (outsAt0 m c t.val t.isLt).2 (iblk m c 2 t) p q)

/-! ## Through the arguments -/

/-- P(t)(p, q) is stretch t % 4 of the sum defining entry (r, c) of x W, for the row r and column c the point's
    blocks sit at. -/
theorem blockProduct_eq (c : Dev nD) (t : Fin cfg0.N) (p : Fin 512) (q : Fin 1024) (r : Fin 8192) (cc : Fin 4096)
    (hr : r.val = 512 * (t.val / 16) + p.val) (hc : cc.val = 1024 * (t.val / 4 % 4) + q.val) :
    blockProduct m c t p q
      = ∑ k : Fin 1024, Spec.term (m ((c : Thread nD τ).loc main_arg0)) (m ((c : Thread nD τ).loc main_arg1)) r cc
          (1024 * (t.val % 4) + k.val) := by
  refine Finset.sum_congr rfl fun k _ => ?_
  have hk : 1024 * (t.val % 4) + k.val < 4096 := by have := k.isLt; omega
  have el : lhsAt m c t (ix2 p k) = m ((c : Thread nD τ).loc main_arg0) (ix2 r ⟨1024 * (t.val % 4) + k.val, hk⟩) :=
    Blocks.lhs_block m c t p k r ⟨_, hk⟩ hr rfl
  have er : rhsAt m c t (ix2 k q) = m ((c : Thread nD τ).loc main_arg1) (ix2 ⟨1024 * (t.val % 4) + k.val, hk⟩ cc) :=
    Blocks.rhs_block m c t k q ⟨_, hk⟩ cc rfl hc
  rw [el, er]
  unfold Spec.term
  rw [dif_pos hk]

/-- THE INVARIANT: after point n the accumulator's entry (p, q) is the sum of the stretches 0 … n % 4. -/
theorem acc_entry (c : Dev nD) (n : ℕ) : ∀ (hn : n < cfg0.N) (p : Fin 512) (q : Fin 1024) (r : Fin 8192) (cc : Fin 4096),
    r.val = 512 * (n / 16) + p.val → cc.val = 1024 * (n / 4 % 4) + q.val →
    ((outsAt0 m c n hn).2 (ix2 p q) : EReal)
      = ∑ s ∈ Finset.range (n % 4 + 1), ∑ k : Fin 1024,
          Spec.term (m ((c : Thread nD τ).loc main_arg0)) (m ((c : Thread nD τ).loc main_arg1)) r cc (1024 * s + k.val) := by
  induction n using Nat.strong_induction_on with
  | _ n ih =>
    intro hn p q r cc hr hc
    have e := blockProduct_eq m c ⟨n, hn⟩ p q r cc hr hc
    dsimp only at e
    by_cases h0 : n % 4 = 0
    · refine (first_entry m c ⟨n, hn⟩ h0 p q).trans ?_
      rw [e, h0, Nat.zero_add, Finset.sum_range_one]
    · have ihn := ih (n - 1) (by omega) (by omega) p q r cc (by omega) (by omega)
      refine (later_entry m c ⟨n, hn⟩ h0 p q).trans ?_
      dsimp only
      rw [e, show n % 4 + 1 = ((n - 1) % 4 + 1) + 1 by omega, Finset.sum_range_succ, ← ihn,
        show (n - 1) % 4 + 1 = n % 4 by omega]

/-- At the last point of a run the output block's entry (p, q) is the linear layer's entry (r, c). -/
theorem out_entry (c : Dev nD) (t : Fin cfg0.N) (h3 : t.val % 4 = 3) (p : Fin 512) (q : Fin 1024) (r : Fin 8192) (cc : Fin 4096)
    (hr : r.val = 512 * (t.val / 16) + p.val) (hc : cc.val = 1024 * (t.val / 4 % 4) + q.val) :
    ((outsAt0 m c t.val t.isLt).1 (ix2 p q) : EReal)
      = Spec.linear (m ((c : Thread nD τ).loc main_arg0)) (m ((c : Thread nD τ).loc main_arg1))
          (m ((c : Thread nD τ).loc main_arg2)) r cc := by
  have eb : biasAt m c t (ix2 (0 : Fin 1) q) = m ((c : Thread nD τ).loc main_arg2) (ix1 cc) :=
    Blocks.bias_block m c t q cc hc
  rw [last_entry m c t h3 p q, acc_entry m c t.val t.isLt p q r cc hr hc, h3, eb]
  exact Spec.stretches_eq_linear _ _ _ r cc

end Cert.KernelIdeal.Fold

end
-- ==== Proof.Result.lean ====
/-
  From blocks to the array. The output block of a run is written back to the result array once, after the run's
  last point (t % 4 = 3), to rows 512 (t / 16) … and columns 1024 ((t / 4) % 4) …. Its entry (p, q) is the
  linear layer's entry at that row and column, so what each write-back writes is the corresponding block of ONE
  function of the whole arguments. The 16 x 4 blocks tile the 8192 x 4096 result: entry (r, c) lies in the block
  written after point 16 (r / 512) + 4 (c / 1024) + 3. Hence the result array ends holding the linear layer.
-/
import proofs.«156490_j77249281786293_1_alg».proof.Proof.Fold
import proofs.«156490_j77249281786293_1_alg».proof.Proof.Gen.KernelIdeal.Value

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen

variable (m : (ℓ : Loc nD τ sig) → Buf (Elt Ideal) ℓ) (ρ : Dev nD → PrngReg)

/-- The linear layer of the three argument arrays, as contents of the result array. -/
def result (c : Dev nD) : Buf (Elt Ideal) ((c : Thread nD τ).loc main_v0) :=
  fun (i : S8192x4096.Idx) =>
    Spec.linear (m ((c : Thread nD τ).loc main_arg0)) (m ((c : Thread nD τ).loc main_arg1)) (m ((c : Thread nD τ).loc main_arg2))
      ⟨(i 0).val, idx2_lt0 i⟩ ⟨(i 1).val, idx2_lt1 i⟩

/-- What the write-back after the last point of a run writes is that run's block of `result`. -/
theorem flushed_eq (c : Dev nD) (t : Fin cfg0.N) (hf : (cfg0.win 3).flush t = true) :
    (dats m 0 c).flushed 3 t = ((cfg0.win 3).blk t).view.read (Elt Ideal) (result m c) := by
  have h3 : t.val % 4 = 3 := (flush0_3 t).mp hf
  obtain ⟨-, -, -, -, -, -, e0, e1⟩ := Blocks.block_index t
  rw [Value.flushed3]
  funext j
  have hj0 : (j 0).val < 512 := (j 0).isLt
  have hj1 : (j 1).val < 1024 := (j 1).isLt
  rw [View.read_apply]
  show ((outsAt0 m c t.val t.isLt).1 ((cfg0.win 3).xinj (grid0.coords t) j) : EReal)
      = result m c (((cfg0.win 3).blk t).view.emb j)
  have hx : (cfg0.win 3).xinj (grid0.coords t) j = ix2 (⟨(j 0).val, hj0⟩ : Fin 512) (⟨(j 1).val, hj1⟩ : Fin 1024) :=
    funext fun a => by
      match a with
      | ⟨0, _⟩ => rfl
      | ⟨1, _⟩ => rfl
  rw [hx]
  unfold result
  exact Fold.out_entry m c t h3 ⟨(j 0).val, hj0⟩ ⟨(j 1).val, hj1⟩ _ _
    (by show win0_3.index t (0 : Fin 2) * 512 + 1 * (j 0).val = 512 * (t.val / 16) + (j 0).val; rw [e0]; omega)
    (by show win0_3.index t (1 : Fin 2) * 1024 + 1 * (j 1).val = 1024 * (t.val / 4 % 4) + (j 1).val; rw [e1]; omega)

/-- An entry of the result lies in point t's output block iff each coordinate lies in the block's range. -/
theorem mem_block (t : Fin cfg0.N) (i : S8192x4096.Idx) :
    i ∈ ((cfg0.win 3).blk t).view.set
      ↔ ∀ a : Fin 2, win0_3.index t a * S512x1024.size a ≤ (i a).val
          ∧ (i a).val < win0_3.index t a * S512x1024.size a + S512x1024.size a := by
  show i ∈ ((View.whole main_v0).slice (win0_3.rect t)).set ↔ _
  rw [View.set_slice_whole, Rect.mem_set_unit]
  exact Iff.rfl

/-- Every entry (r, c) of the result is written back after point 16 (r / 512) + 4 (c / 1024) + 3. -/
theorem covered (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  have hN : cfg0.N = 256 := N_0
  obtain ⟨t, ht⟩ : ∃ t : Fin cfg0.N, t.val = 16 * ((i 0).val / 512) + 4 * ((i 1).val / 1024) + 3 :=
    ⟨⟨16 * ((i 0).val / 512) + 4 * ((i 1).val / 1024) + 3, by rw [hN]; omega⟩, rfl⟩
  obtain ⟨-, -, -, -, -, -, e0, e1⟩ := Blocks.block_index t
  refine ⟨t, (flush0_3 t).mpr (by omega), ?_⟩
  rw [mem_block]
  intro a
  match a with
  | ⟨0, _⟩ =>
    show win0_3.index t (0 : Fin 2) * 512 ≤ (i 0).val ∧ (i 0).val < win0_3.index t (0 : Fin 2) * 512 + 512
    rw [e0]; omega
  | ⟨1, _⟩ =>
    show win0_3.index t (1 : Fin 2) * 1024 ≤ (i 1).val ∧ (i 1).val < win0_3.index t (1 : Fin 2) * 1024 + 1024
    rw [e1]; omega

/-- The result array after the run. -/
theorem final (c : Dev nD) : (dats m 0 c).arrAt 3 cfg0.N = result m c :=
  (dats m 0 c).arrAt_eq_of_cover 3 (result m c) (flushed_eq m c) covered

/-- Every weakly fair execution of the program terminates with the result array at the linear layer of the
    arguments, and the arguments as they were. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Result

end
-- ==== Proof.Reference.lean ====
/-
  The reference at an entry. It multiplies x by W in one product, lays the bias out as a row, repeats the row down
  all 8192 rows and adds. Over the extended reals its entry (r, c) is therefore
      sum over k < 4096 of x(r, k) * W(k, c),  plus b(c):
  the linear layer's entry, term for term.
-/
import proofs.«156490_j77249281786293_1_alg».proof.Proof.Gen.ReferenceIdeal.Read
import proofs.«156490_j77249281786293_1_alg».proof.Proof.Spec

noncomputable section

open Idealize.ShloMosaic Idealize.ShloMosaic.ValueIdx

namespace Cert.ReferenceIdeal.RefValue

open Cert.ReferenceIdeal

/-- The reference's result at entry i is the linear layer at i's row and column. -/
theorem reference_entry (x0 : (⟨S8192x4096, .f32⟩ : BufTy).Contents (Elt Ideal)) (x1 : (⟨S4096x4096, .f32⟩ : BufTy).Contents (Elt Ideal))
    (x2 : (⟨S4096, .f32⟩ : BufTy).Contents (Elt Ideal)) (i : S8192x4096.Idx) :
    Read.val_main_v3 (F := Ideal) x0 x1 x2 i = Spec.linear x0 x1 x2 ⟨(i 0).val, idx2_lt0 i⟩ ⟨(i 1).val, idx2_lt1 i⟩ := by
  have el : ∀ k : Fin 4096, Read.lidx_main_v0 i k = ix2 (⟨(i 0).val, idx2_lt0 i⟩ : Fin 8192) k := fun k =>
    funext fun a => by
      match a with
      | ⟨0, _⟩ => rfl
      | ⟨1, _⟩ => rfl
  have er : ∀ k : Fin 4096, Read.ridx_main_v0 i k = ix2 k (⟨(i 1).val, idx2_lt1 i⟩ : Fin 4096) := fun k =>
    funext fun a => by
      match a with
      | ⟨0, _⟩ => rfl
      | ⟨1, _⟩ => rfl
  have eb : Read.idx_main_v1 (Read.idx_main_v2 i) = ix1 (⟨(i 1).val, idx2_lt1 i⟩ : Fin 4096) :=
    funext fun a => by
      match a with
      | ⟨0, _⟩ => rfl
  rw [Read.val_main_v3_apply, Read.val_main_v0_apply, Read.val_main_v2_apply, Read.val_main_v1_apply, eb]
  simp only [el, er]
  rfl

end Cert.ReferenceIdeal.RefValue

end
-- ==== Proof.lean ====
/-
  A dense layer, out = x W + b for x of 8192 x 4096, W of 4096 x 4096 and b of 4096 entries, computed two ways.

  The kernel walks a 16 x 4 x 4 grid. The first two coordinates choose a 512 x 1024 block of the output; the third
  walks the four stretches of 1024 of the contracted index. A 512 x 1024 accumulator lives across the four steps of
  a block: the first step zeroes it, every step adds the product of a 512 x 1024 block of x (rounded to a shorter
  format on the way into the multiplier) and a 1024 x 1024 block of W (likewise), and the fourth step writes
  accumulator plus the bias row to the output block. The reference is one whole product plus the bias row repeated
  down the rows.

  Over the extended reals, where rounding is the identity and every operation is exact, both are
      out(r, c) = sum over k < 4096 of x(r, k) * W(k, c),  plus b(c):
  the kernel's four partial sums over consecutive stretches, added to a zero, are the whole sum because addition is
  commutative and associative with neutral element 0 (Proof/Spec.lean). That law holds for infinite summands too,
  so the hypothesis that the inputs are finite is never opened. Proof/Pieces.lean reads each step's stores back as
  values, Proof/Payload.lean the step's arithmetic at an entry, Proof/Blocks.lean which entries of the arguments a
  step sees, Proof/Fold.lean the accumulator after each step by induction over the steps, Proof/Result.lean the
  whole result array from the blocks written back, Proof/Reference.lean the reference at an entry.

  The three programs run to completion without fault and leave their arguments as they were; the word-level
  program and its idealization differ in no operation, so nothing is owed for the passage between them.
-/
import proofs.«156490_j77249281786293_1_alg».proof.Defs
import proofs.«156490_j77249281786293_1_alg».proof.Proof.Gen.Kernel
import proofs.«156490_j77249281786293_1_alg».proof.Proof.Gen.Kernel.Skeleton
import proofs.«156490_j77249281786293_1_alg».proof.Proof.Gen.Kernel.Launch
import proofs.«156490_j77249281786293_1_alg».proof.Proof.Gen.Kernel.Points
import proofs.«156490_j77249281786293_1_alg».proof.Proof.Gen.Kernel.Frame
import proofs.«156490_j77249281786293_1_alg».proof.Proof.Gen.KernelIdeal
import proofs.«156490_j77249281786293_1_alg».proof.Proof.Gen.KernelIdeal.Skeleton
import proofs.«156490_j77249281786293_1_alg».proof.Proof.Gen.KernelIdeal.Launch
import proofs.«156490_j77249281786293_1_alg».proof.Proof.Gen.KernelIdeal.Points
import proofs.«156490_j77249281786293_1_alg».proof.Proof.Gen.KernelIdeal.Frame
import proofs.«156490_j77249281786293_1_alg».proof.Proof.Gen.ReferenceIdeal
import proofs.«156490_j77249281786293_1_alg».proof.Proof.Gen.KernelIdeal.Value
import proofs.«156490_j77249281786293_1_alg».proof.Proof.Gen.ReferenceIdeal.Run
import proofs.«156490_j77249281786293_1_alg».proof.Proof.Gen.ReferenceIdeal.Read
import proofs.«156490_j77249281786293_1_alg».proof.Proof.Gen.Pre_finite_inputs
import proofs.«156490_j77249281786293_1_alg».proof.Proof.Result
import proofs.«156490_j77249281786293_1_alg».proof.Proof.Reference
import Idealize.ShloMosaic.Adequacy
import Idealize.ShloMosaic.Init

noncomputable section

namespace Cert.Proof

open Idealize.ShloMosaic Idealize.SL.Sem

/-- The word-level kernel runs to completion and leaves its arguments alone. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten on the way to the extended reals. -/
theorem preserves : Cert.preserves_Kernel_KernelIdeal := trivial

/-- From arguments that agree, the kernel's result array ends at the linear layer of its arguments (block by block,
    each block the sum of four stretches plus the bias) and the reference's at one product plus the bias: the same
    function, entry by entry. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq]
  funext i
  rw [Cert.ReferenceIdeal.RefValue.reference_entry, (hagree c).1, (hagree c).2.1, (hagree c).2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
